-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S8192x2048 : Shape := ⟨2, ![8192, 2048]⟩
abbrev S8192 : Shape := ⟨1, ![8192]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192x2048 .f32) (main_arg5 : FVec F S8192x2048 .f32) (main_arg6 : FVec F S8192 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S8192x2048 .f32 := Host.absf main_arg4
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  let main_v24 : FVec F S8192x2048 .f32 := Host.absf main_arg5
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  main_v33

def fn {F : FTy → Type} [FloatOps F] (main_arg0 : FVec F S4096x2048 .f32) (main_arg1 : FVec F S4096x2048 .f32) (main_arg2 : FVec F S4096x2048 .f32) (main_arg3 : FVec F S4096x2048 .f32) (main_arg4 : FVec F S8192x2048 .f32) (main_arg5 : FVec F S8192x2048 .f32) (main_arg6 : FVec F S8192 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_v13 main_v16
-- ==== Kernel.lean ====
abbrev S4096x2048 : Shape := ⟨2, ![4096, 2048]⟩
abbrev S8192x2048 : Shape := ⟨2, ![8192, 2048]⟩
abbrev S8192 : Shape := ⟨1, ![8192]⟩
abbrev S1x8192 : Shape := ⟨2, ![1, 8192]⟩
abbrev S256x128 : Shape := ⟨2, ![256, 128]⟩
abbrev S8192x128 : Shape := ⟨2, ![8192, 128]⟩
abbrev S256x2048 : Shape := ⟨2, ![256, 2048]⟩
abbrev S256x8192 : Shape := ⟨2, ![256, 8192]⟩

abbrev nBuf : Space → Nat
  | .hbm => 15
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S8192x2048, .f32⟩
  | .hbm, ⟨5, _⟩ => ⟨S8192x2048, .f32⟩
  | .hbm, ⟨6, _⟩ => ⟨S8192, .f32⟩
  | .hbm, ⟨7, _⟩ => ⟨S4096x2048, .bf16⟩
  | .hbm, ⟨8, _⟩ => ⟨S4096x2048, .bf16⟩
  | .hbm, ⟨9, _⟩ => ⟨S8192x2048, .bf16⟩
  | .hbm, ⟨10, _⟩ => ⟨S8192x2048, .bf16⟩
  | .hbm, ⟨11, _⟩ => ⟨S1x8192, .f32⟩
  | .hbm, ⟨12, _⟩ => ⟨S4096x2048, .f32⟩
  | .hbm, ⟨13, _⟩ => ⟨S4096x2048, .f32⟩
  | .hbm, ⟨14, _⟩ => ⟨S4096x2048, .f32⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S8192x128, .bf16⟩
  | .local _ .vmem, ⟨5, _⟩ => ⟨S8192x128, .bf16⟩
  | .local _ .vmem, ⟨6, _⟩ => ⟨S8192x128, .bf16⟩
  | .local _ .vmem, ⟨7, _⟩ => ⟨S8192x128, .bf16⟩
  | .local _ .vmem, ⟨8, _⟩ => ⟨S1x8192, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x8192, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v19 : BitVec 1 := Scalar.cmpi .eq arg1 c15_i32
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  bitsLt_bf16_f32 : FTy.bits .bf16 < FTy.bits .f32
  shapeCasts_S8192_S1x8192 : S8192.ShapeCasts S1x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S256x8192 : S1x8192.Broadcasts S256x8192
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S256x8192_S256x2048_0_0 : ∀ a, (![0, 0] : Fin 2 → Nat) a + S256x2048.size a ≤ S256x8192.size a
  h_S256x2048 : 0 < S256x2048.numel
  inb_S256x8192_S256x2048_0_2048 : ∀ a, (![0, 2048] : Fin 2 → Nat) a + S256x2048.size a ≤ S256x8192.size a
  inb_S256x8192_S256x2048_0_4096 : ∀ a, (![0, 4096] : Fin 2 → Nat) a + S256x2048.size a ≤ S256x8192.size a
  inb_S256x8192_S256x2048_0_6144 : ∀ a, (![0, 6144] : Fin 2 → Nat) a + S256x2048.size a ≤ S256x8192.size a
  inb_S256x2048_S256x2048_0_0 : ∀ a, (![0, 0] : Fin 2 → Nat) a + S256x2048.size a ≤ S256x2048.size a
  dot_S256x128_S8192x128_S256x8192_1_1_0_0_n_n_wf : DotDims.WF S256x128 S8192x128 S256x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S4096x2048.size a
  hwx0_0 : ∀ i : grid0.Coords, EltTy.bits .bf16 = 32 ∨ (Rect.block (s := S4096x2048) S256x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S4096x2048.size a
  hwx0_1 : ∀ i : grid0.Coords, EltTy.bits .bf16 = 32 ∨ (Rect.block (s := S4096x2048) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S8192x2048.size a
  hwx0_2 : ∀ i : grid0.Coords, EltTy.bits .bf16 = 32 ∨ (Rect.block (s := S8192x2048) S8192x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S8192x2048.size a
  hwx0_3 : ∀ i : grid0.Coords, EltTy.bits .bf16 = 32 ∨ (Rect.block (s := S8192x2048) S8192x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8192.size a ≤ S1x8192.size a
  hwx0_4 : ∀ i : grid0.Coords, EltTy.bits .f32 = 32 ∨ (Rect.block (s := S1x8192) S1x8192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S4096x2048.size a
  hwx0_5 : ∀ i : grid0.Coords, EltTy.bits .f32 = 32 ∨ (Rect.block (s := S4096x2048) S256x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S4096x2048.size a
  hwx0_6 : ∀ i : grid0.Coords, EltTy.bits .f32 = 32 ∨ (Rect.block (s := S4096x2048) S256x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S4096x2048.size a
  hwx0_7 : ∀ i : grid0.Coords, EltTy.bits .f32 = 32 ∨ (Rect.block (s := S4096x2048) S256x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S4096x2048.size a
  hwx0_8 : ∀ i : grid0.Coords, EltTy.bits .f32 = 32 ∨ (Rect.block (s := S4096x2048) S256x2048.size (cc0_transform_8 i) (hinb0_8 i)).WholeWords (EltTy.packing .f32)

variable [Facts₀]

def dot_S256x128_S8192x128_S256x8192_1_1_0_0_n_n : DotDims S256x128 S8192x128 S256x8192 where
  lhsContracting := [1]
  rhsContracting := [1]
  lhsNonContracting := [0]
  rhsNonContracting := [0]
  lhsBatch := []
  rhsBatch := []
  wf := dot_S256x128_S8192x128_S256x8192_1_1_0_0_n_n_wf

abbrev win0_0 : Pipeline.Window sig grid0 :=
  Pipeline.Window.ofSpec (Memref.whole main_v0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8192x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x8192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S256x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S256x2048.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S256x2048.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5_2) S256x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | 8 => fun i => !(k0_cond2 i == 1#1) | ⟨_ + 9, h⟩ => absurd h (Nat.not_lt.2 (Nat.le_add_left _ _))

class Facts : Prop extends Facts₀ where

variable [Facts]
-- ==== ReferenceIdeal.lean ====
abbrev S4096x2048 : Shape := ⟨2, ![4096, 2048]⟩
abbrev S8192x2048 : Shape := ⟨2, ![8192, 2048]⟩
abbrev S8192 : Shape := ⟨1, ![8192]⟩
abbrev S2048x8192 : Shape := ⟨2, ![2048, 8192]⟩
abbrev S4096x8192 : Shape := ⟨2, ![4096, 8192]⟩
abbrev S1x8192 : Shape := ⟨2, ![1, 8192]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S8192x2048, .f32⟩
  | .hbm, ⟨5, _⟩ => ⟨S8192x2048, .f32⟩
  | .hbm, ⟨6, _⟩ => ⟨S8192, .f32⟩
  | .hbm, ⟨7, _⟩ => ⟨S2048x8192, .f32⟩
  | .hbm, ⟨8, _⟩ => ⟨S4096x8192, .f32⟩
  | .hbm, ⟨9, _⟩ => ⟨S2048x8192, .f32⟩
  | .hbm, ⟨10, _⟩ => ⟨S4096x8192, .f32⟩
  | .hbm, ⟨11, _⟩ => ⟨S4096x8192, .f32⟩
  | .hbm, ⟨12, _⟩ => ⟨S1x8192, .f32⟩
  | .hbm, ⟨13, _⟩ => ⟨S4096x8192, .f32⟩
  | .hbm, ⟨14, _⟩ => ⟨S4096x8192, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]

class Facts₀ : Prop where
  transposes_S8192x2048_S2048x8192_1_0 : S8192x2048.Transposes [1, 0] S2048x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x2048_S2048x8192_S4096x8192_1_0_0_1_n_n_wf : DotDims.WF S4096x2048 S2048x8192 S4096x8192 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.LibBlockSum.lean ====
/-
  Two small tools for a matrix product accumulated block by block along its contraction axis.

  (1) A sum over the first J * B naturals is the sum, over the J consecutive blocks of length B, of each block's
      sum: the block s holds the naturals B * s, ..., B * s + (B - 1). Only commutativity and associativity of
      the addition are used, so the statement holds in any commutative additive monoid -- in particular on the
      extended reals, where no finiteness is needed.
  (2) A rank-2 array read at a pair of NATURAL coordinates (zero outside the extents). It lets a block's entry
      "block index * block size + offset" be written with plain arithmetic on naturals, and agrees with the
      array at every genuine index.
-/
import Idealize.ShloMosaic.Lib.ValueIdx

noncomputable section

open scoped BigOperators

namespace Idealize.ShloMosaic.BlockSum

open Idealize.ShloMosaic Idealize.ShloMosaic.ValueIdx

/-- The sum over the first J * B naturals, block by block. -/
theorem sum_range_blocks {β : Type*} [AddCommMonoid β] (f : ℕ → β) (J B : ℕ) :
    ∑ j ∈ Finset.range (J * B), f j = ∑ s ∈ Finset.range J, ∑ k ∈ Finset.range B, f (B * s + k) := by
  induction J with
  | zero => simp
  | succ J ih =>
    rw [Nat.succ_mul, Finset.sum_range_add, ih, Finset.sum_range_succ, Nat.mul_comm J B]

/-- A rank-2 array of extended reals read at natural coordinates; zero outside the extents. -/
def at2 {R C : ℕ} (A : (⟨2, ![R, C]⟩ : Shape).Idx → EReal) (r c : ℕ) : EReal :=
  if h : r < R ∧ c < C then A (ix2 ⟨r, h.1⟩ ⟨c, h.2⟩) else 0

/-- At the coordinates of a genuine index the natural-coordinate read is the array. -/
theorem at2_val {R C : ℕ} (A : (⟨2, ![R, C]⟩ : Shape).Idx → EReal) (i : (⟨2, ![R, C]⟩ : Shape).Idx) :
    at2 A (i 0).val (i 1).val = A i := by
  unfold at2
  rw [dif_pos ⟨(i 0).isLt, (i 1).isLt⟩]
  exact congrArg A (eq_ix2 i).symm

/-- The same, for an index given by its two coordinates. -/
theorem at2_ix2 {R C : ℕ} (A : (⟨2, ![R, C]⟩ : Shape).Idx → EReal) (r : Fin R) (c : Fin C) :
    at2 A r.val c.val = A (ix2 r c) := by
  unfold at2
  rw [dif_pos ⟨r.isLt, c.isLt⟩]

/-- A sum over a finite ordinal of a natural-coordinate term is the sum over the initial segment of the naturals. -/
theorem sum_fin_eq_range {β : Type*} [AddCommMonoid β] (n : ℕ) (f : ℕ → β) :
    ∑ k : Fin n, f k.val = ∑ k ∈ Finset.range n, f k :=
  (Finset.sum_range f).symm

end Idealize.ShloMosaic.BlockSum

end
-- ==== Proof.LstmSpec.lean ====
/-
  The LSTM cell as one function of the argument arrays, index by index, over the extended reals.

  With the pre-activation
      z(r, g) = Σ_j x(r, j) · w_ih(g, j) + Σ_j h(r, j) · w_hh(g, j) + b(g)     (row r < 4096, gate column g < 8192, j < 2048),
  the four gates of hidden unit q < 2048 are the columns q, 2048 + q, 4096 + q, 6144 + q of z:
      f = σ(z(r, q)),   i = σ(z(r, 2048 + q)),   s = tanh(z(r, 4096 + q)),   o = σ(z(r, 6144 + q)),
  and the three results are   c' = f · c(r, q) + i · s,   h' = o · tanh c',   and o itself.

  The same pre-activation is reached by starting from the bias and adding, for k = 0, …, 15 in this order, the
  contribution of the k-th block of 128 contraction positions,
      Σ_{j < 128} x(r, 128k + j) · w_ih(g, 128k + j) + Σ_{j < 128} h(r, 128k + j) · w_hh(g, 128k + j).
  The two agree because a finite sum may be split into consecutive blocks, a sum of sums is the sum of the two sums,
  and addition is commutative: laws of a commutative additive monoid, which the extended reals are. No entry needs
  to be finite for this.

  Coordinates are natural numbers throughout (an array read outside its extents is zero), so that a block's entry
  "block index · block size + offset" is plain arithmetic.
-/
import Idealize.ShloMosaic.PureOps.Ideal
import Idealize.ShloMosaic.Lib.ValueIdx
import proofs.«175771_j89867895701841_2_alg».proof.Proof.LibBlockSum

noncomputable section

open scoped BigOperators

namespace Cert.LstmSpec

open Idealize.ShloMosaic Idealize.ShloMosaic.ValueIdx Idealize.ShloMosaic.BlockSum

/-- A matrix of extended reals with R rows and C columns. -/
abbrev Mat (R C : ℕ) : Type := (⟨2, ![R, C]⟩ : Shape).Idx → EReal
/-- A vector of extended reals of length n. -/
abbrev Vct (n : ℕ) : Type := (⟨1, ![n]⟩ : Shape).Idx → EReal

/-- A vector read at a natural coordinate; zero outside its extent. -/
def at1 {n : ℕ} (v : Vct n) (g : ℕ) : EReal := if h : g < n then v (ix1 ⟨g, h⟩) else 0

/-- At a genuine coordinate the natural-coordinate read is the vector's entry. -/
theorem at1_ix1 {n : ℕ} (v : Vct n) (g : Fin n) : at1 v g.val = v (ix1 g) := by
  unfold at1
  rw [dif_pos g.isLt]

variable (X Hh : Mat 4096 2048) (Wi Wh : Mat 8192 2048) (Bv : Vct 8192) (Cc : Mat 4096 2048)

/-- The pre-activation z(r, g): both full contractions, then the bias. -/
def pre (r g : ℕ) : EReal :=
  (∑ j ∈ Finset.range 2048, at2 X r j * at2 Wi g j) + (∑ j ∈ Finset.range 2048, at2 Hh r j * at2 Wh g j) + at1 Bv g

/-- What the k-th block of 128 contraction positions contributes to z(r, g). -/
def blockTerm (r g k : ℕ) : EReal :=
  (∑ j ∈ Finset.range 128, at2 X r (128 * k + j) * at2 Wi g (128 * k + j))
    + (∑ j ∈ Finset.range 128, at2 Hh r (128 * k + j) * at2 Wh g (128 * k + j))

/-- The bias with the first n blocks' contributions added to it. -/
def accUpTo (r g n : ℕ) : EReal := at1 Bv g + ∑ k ∈ Finset.range n, blockTerm X Hh Wi Wh r g k

/-- With no block added yet, it is the bias. -/
theorem accUpTo_zero (r g : ℕ) : accUpTo X Hh Wi Wh Bv r g 0 = at1 Bv g := by
  unfold accUpTo
  rw [Finset.sum_range_zero, add_zero]

/-- Adding one more block. -/
theorem accUpTo_succ (r g n : ℕ) :
    accUpTo X Hh Wi Wh Bv r g (n + 1) = accUpTo X Hh Wi Wh Bv r g n + blockTerm X Hh Wi Wh r g n := by
  unfold accUpTo
  rw [Finset.sum_range_succ, add_assoc]

/-- After all sixteen blocks it is the pre-activation. -/
theorem accUpTo_sixteen (r g : ℕ) : accUpTo X Hh Wi Wh Bv r g 16 = pre X Hh Wi Wh Bv r g := by
  have e1 := sum_range_blocks (fun j => at2 X r j * at2 Wi g j) 16 128
  have e2 := sum_range_blocks (fun j => at2 Hh r j * at2 Wh g j) 16 128
  rw [show (16 * 128 : ℕ) = 2048 from rfl] at e1 e2
  unfold accUpTo pre blockTerm
  rw [Finset.sum_add_distrib, ← e1, ← e2, add_comm]

/-- The forget gate. -/
def gateF (r q : ℕ) : EReal := Ideal.logistic (pre X Hh Wi Wh Bv r q)
/-- The input gate. -/
def gateI (r q : ℕ) : EReal := Ideal.logistic (pre X Hh Wi Wh Bv r (2048 + q))
/-- The candidate state. -/
def gateS (r q : ℕ) : EReal := Ideal.tanh (pre X Hh Wi Wh Bv r (4096 + q))
/-- The output gate. -/
def gateO (r q : ℕ) : EReal := Ideal.logistic (pre X Hh Wi Wh Bv r (6144 + q))

/-- The next cell state c' = f · c + i · s. -/
def cNext (r q : ℕ) : EReal :=
  gateF X Hh Wi Wh Bv r q * at2 Cc r q + gateI X Hh Wi Wh Bv r q * gateS X Hh Wi Wh Bv r q
/-- The next hidden state h' = o · tanh c'. -/
def hNext (r q : ℕ) : EReal := gateO X Hh Wi Wh Bv r q * Ideal.tanh (cNext X Hh Wi Wh Bv Cc r q)

/-- The three results as arrays of 4096 rows and 2048 hidden units. -/
def hNextArr : Mat 4096 2048 := fun i => hNext X Hh Wi Wh Bv Cc (i 0).val (i 1).val
def cNextArr : Mat 4096 2048 := fun i => cNext X Hh Wi Wh Bv Cc (i 0).val (i 1).val
def gateOArr : Mat 4096 2048 := fun i => gateO X Hh Wi Wh Bv (i 0).val (i 1).val

end Cert.LstmSpec

end
-- ==== Proof.LstmRef.lean ====
/-
  The reference computes the specification.

  Read one operation at a time: the two contractions of the reference are its dot products against the transposed
  weights, that is, sums over j of x(r, j) · w_ih(g, j) and of h(r, j) · w_hh(g, j); the bias is broadcast along the
  rows; the four gate slices are the column ranges starting at 0, 2048, 4096 and 6144; and the sigmoid, which the
  reference spells as 1 / (1 + exp(−z)) with the constant 1.0, is the logistic function of the extended reals, whose
  definition is that same expression.
-/
import proofs.«175771_j89867895701841_2_alg».proof.Proof.Gen.ReferenceIdeal.Read
import proofs.«175771_j89867895701841_2_alg».proof.Proof.LstmSpec
import Idealize.ShloMosaic.Lib.IdealHost

noncomputable section

open scoped BigOperators

namespace Cert.LstmRef

open Cert.ReferenceIdeal Cert.ReferenceIdeal.Read Cert.LstmSpec
open Idealize.ShloMosaic Idealize.ShloMosaic.ValueIdx Idealize.ShloMosaic.BlockSum

variable (x0 x1 x2 : (⟨S4096x2048, .f32⟩ : BufTy).Contents (Elt Ideal))
variable (x4 x5 : (⟨S8192x2048, .f32⟩ : BufTy).Contents (Elt Ideal))
variable (x6 : (⟨S8192, .f32⟩ : BufTy).Contents (Elt Ideal))

/-- The first contraction at output index j: the sum over the 2048 positions of x(j₀, k) · w_ih(j₁, k). -/
theorem dot_x (j : S4096x8192.Idx) :
    (∑ k : Fin 2048, x0 (lidx_main_v1 j k) * (val_main_v0 (F := Ideal) x4) (ridx_main_v1 j k))
      = ∑ k ∈ Finset.range 2048, at2 x0 (j 0).val k * at2 x4 (j 1).val k := by
  refine Eq.trans ?_ (sum_fin_eq_range 2048 (fun k => at2 x0 (j 0).val k * at2 x4 (j 1).val k))
  refine Finset.sum_congr rfl fun k _ => ?_
  rw [val_main_v0_apply]
  exact congrArg₂ (· * ·) (at2_val x0 (lidx_main_v1 j k)).symm (at2_val x4 (idx_main_v0 (ridx_main_v1 j k))).symm

/-- The second contraction at output index j: the sum over the 2048 positions of h(j₀, k) · w_hh(j₁, k). -/
theorem dot_h (j : S4096x8192.Idx) :
    (∑ k : Fin 2048, x1 (lidx_main_v3 j k) * (val_main_v2 (F := Ideal) x5) (ridx_main_v3 j k))
      = ∑ k ∈ Finset.range 2048, at2 x1 (j 0).val k * at2 x5 (j 1).val k := by
  refine Eq.trans ?_ (sum_fin_eq_range 2048 (fun k => at2 x1 (j 0).val k * at2 x5 (j 1).val k))
  refine Finset.sum_congr rfl fun k _ => ?_
  rw [val_main_v2_apply]
  exact congrArg₂ (· * ·) (at2_val x1 (lidx_main_v3 j k)).symm (at2_val x5 (idx_main_v2 (ridx_main_v3 j k))).symm

/-- The bias broadcast along the rows, read at index j, is b(j₁). -/
theorem bias_at (j : S4096x8192.Idx) : val_main_v6 (F := Ideal) x6 j = at1 x6 (j 1).val := by
  rw [val_main_v6_apply, val_main_v5_apply]
  have e : idx_main_v5 (idx_main_v6 j) = ix1 (j 1) := funext fun a => by
    match a with
    | ⟨0, _⟩ => rfl
  rw [e]
  exact (at1_ix1 x6 (j 1)).symm

/-- The reference's [4096, 8192] pre-activation array is z. -/
theorem pre_eq (j : S4096x8192.Idx) :
    val_main_v7 (F := Ideal) x0 x1 x4 x5 x6 j = pre x0 x1 x4 x5 x6 (j 0).val (j 1).val := by
  rw [val_main_v7_apply, val_main_v4_apply, val_main_v1_apply, val_main_v3_apply, dot_x, dot_h, bias_at]
  rfl

/-- The reference's spelling of the sigmoid, 1.0 / (1.0 + exp(−z)), is the logistic function. -/
theorem sigmoid_spelled (z : Ideal .f32) :
    FloatOps.hostDivf (F := Ideal) (FloatOps.ofBits .f32 0x3F800000#32)
      (FloatOps.addf (FloatOps.ofBits .f32 0x3F800000#32) (FloatOps.hostUnary .exp (FloatOps.hostNegf z)))
      = Ideal.logistic z := by
  show Ideal.div (Ideal.ofBits .f32 0x3F800000#32) (Ideal.ofBits .f32 0x3F800000#32 + Ideal.exp (-z))
    = Ideal.div 1 (1 + Ideal.exp (-z))
  rw [Ideal.ofBits_one_f32]

/-- The reference's forget gate. -/
theorem gateF_eq (i : S4096x2048.Idx) :
    val_main_v17 (F := Ideal) x0 x1 x4 x5 x6 i = gateF x0 x1 x4 x5 x6 (i 0).val (i 1).val := by
  rw [val_main_v17_apply, val_main_v16_apply, val_main_cst_0_apply, val_main_v15_apply, val_main_v14_apply,
    val_main_cst_apply, val_main_v13_apply, val_main_v12_apply, val_main_v8_apply, pre_eq, sigmoid_spelled]
  rfl

/-- The reference's input gate. -/
theorem gateI_eq (i : S4096x2048.Idx) :
    val_main_v23 (F := Ideal) x0 x1 x4 x5 x6 i = gateI x0 x1 x4 x5 x6 (i 0).val (i 1).val := by
  rw [val_main_v23_apply, val_main_v22_apply, val_main_cst_2_apply, val_main_v21_apply, val_main_v20_apply,
    val_main_cst_1_apply, val_main_v19_apply, val_main_v18_apply, val_main_v9_apply, pre_eq, sigmoid_spelled]
  rfl

/-- The reference's candidate state. -/
theorem gateS_eq (i : S4096x2048.Idx) :
    val_main_v24 (F := Ideal) x0 x1 x4 x5 x6 i = gateS x0 x1 x4 x5 x6 (i 0).val (i 1).val := by
  rw [val_main_v24_apply, val_main_v10_apply, pre_eq]
  rfl

/-- The reference's output gate. -/
theorem gateO_eq (i : S4096x2048.Idx) :
    val_main_v30 (F := Ideal) x0 x1 x4 x5 x6 i = gateO x0 x1 x4 x5 x6 (i 0).val (i 1).val := by
  rw [val_main_v30_apply, val_main_v29_apply, val_main_cst_4_apply, val_main_v28_apply, val_main_v27_apply,
    val_main_cst_3_apply, val_main_v26_apply, val_main_v25_apply, val_main_v11_apply, pre_eq, sigmoid_spelled]
  rfl

/-- The reference's next cell state. -/
theorem cNext_eq (i : S4096x2048.Idx) :
    val_main_v33 (F := Ideal) x0 x1 x2 x4 x5 x6 i = cNext x0 x1 x4 x5 x6 x2 (i 0).val (i 1).val := by
  rw [val_main_v33_apply, val_main_v31_apply, val_main_v32_apply, gateF_eq, gateI_eq, gateS_eq]
  unfold cNext
  rw [at2_val x2 i]
  rfl

/-- The reference's next hidden state. -/
theorem hNext_eq (i : S4096x2048.Idx) :
    val_main_v35 (F := Ideal) x0 x1 x2 x4 x5 x6 i = hNext x0 x1 x4 x5 x6 x2 (i 0).val (i 1).val := by
  rw [val_main_v35_apply, val_main_v34_apply, gateO_eq, cNext_eq]
  rfl

/-- The reference's three results are the specification's three arrays. -/
theorem ref_h : val_main_v35 (F := Ideal) x0 x1 x2 x4 x5 x6 = hNextArr x0 x1 x4 x5 x6 x2 :=
  funext fun i => hNext_eq x0 x1 x2 x4 x5 x6 i
theorem ref_c : val_main_v33 (F := Ideal) x0 x1 x2 x4 x5 x6 = cNextArr x0 x1 x4 x5 x6 x2 :=
  funext fun i => cNext_eq x0 x1 x2 x4 x5 x6 i
theorem ref_o : val_main_v30 (F := Ideal) x0 x1 x4 x5 x6 = gateOArr x0 x1 x4 x5 x6 :=
  funext fun i => gateO_eq x0 x1 x4 x5 x6 i

end Cert.LstmRef

end
-- ==== Proof.LibStoreThenLoad.lean ====
/-
  A load, through ANY rectangle, of what one store of the whole buffer left reads the store's payload through that
  rectangle.

  When a buffer has just been overwritten whole (one store through the full-shape rectangle at zero offsets), whatever
  sub-rectangle is loaded next sees the stored payload restricted to the sub-rectangle: entry x of the load is the
  payload at offset + x. This is the step between "an accumulator was stored" and "its column ranges were read back".
  The case where the loaded rectangle is again the whole buffer is the library's own lemma about a store read back.
-/
import Idealize.ShloMosaic.Lib.Pipeline.Value

noncomputable section

namespace Idealize.ShloMosaic.View

variable {Val : EltTy → Type} {S : Shape} {e : EltTy}

/-- One whole store, then a load through the rectangle r: the payload read through r. -/
theorem readCov_whole_store_rect [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (r : Rect S) :
    v.readCov [(⟨Rect.unit off S.size inb, w⟩ : Piece Val S e)] r.toLoadRect = View.ld w r := by
  rw [readCov_eq_canon_ld _ _ _ (fun y => ⟨_, List.mem_singleton_self _, mem_set_unit_zero h inb y⟩),
    canon_unit_zero h]

end Idealize.ShloMosaic.View

end
-- ==== Proof.LstmPieces.lean ====
/-
  What the kernel body leaves behind at a grid point, case by case, as pure functions of what it loaded.

  The body keeps a [256, 8192] accumulator in scratch memory across the sixteen grid points of a row tile:
    * at the first point of a row tile it overwrites the accumulator with the bias row broadcast down the 256 rows,
      reads it back, and stores accumulator + (x-block · w_ih-blockᵀ + h-block · w_hh-blockᵀ);
    * at every later point it stores (what the previous point left) + the same two products of this point's blocks;
    * at the last point, after that store, it reads the four column ranges [0, 2048), [2048, 4096), [4096, 6144),
      [6144, 8192) of the fresh accumulator and the c-block, and stores the three result blocks.
  Each statement below says this for one case and one buffer: the contents the run found are the named arithmetic
  of the loaded blocks. They hold at every float instance.
-/
import proofs.«175771_j89867895701841_2_alg».proof.Proof.Gen.KernelIdeal.Frame
import proofs.«175771_j89867895701841_2_alg».proof.Proof.LibStoreThenLoad
import Idealize.ShloMosaic.Lib.Pipeline.Value
import Idealize.ShloMosaic.Lib.ValueIdx
import Idealize.ShloMosaic.Lib.Tactic

noncomputable section

namespace Cert.KernelIdeal.LstmPieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The 2048 columns of a [256, 8192] array that start at column off. -/
def cols (off : ℕ) (hoff : off + 2048 ≤ 8192) (A : Vec F S256x8192 .f32) : Vec F S256x2048 .f32 :=
  fun y => A (ValueIdx.ix2 (y 0) ⟨off + (y 1).val, by have := ValueIdx.idx2_lt1 y; omega⟩)

/-- A load through the rectangle of 256 rows and 2048 columns at column offset off reads those columns. -/
theorem ld_cols (off : ℕ) (hoff : off + 2048 ≤ 8192) (A : Vec F S256x8192 .f32)
    (inb : ∀ a, (![0, off] : Fin 2 → Nat) a + S256x2048.size a ≤ S256x8192.size a) :
    View.ld A (Rect.unit (s := S256x8192) ![0, off] S256x2048.size inb) = cols off hoff A := by
  funext y
  show A _ = A _
  refine congrArg A (funext fun a => Fin.ext ?_)
  match a with
  | ⟨0, _⟩ => show 0 + 1 * (y 0).val = (y 0).val; omega
  | ⟨1, _⟩ => show off + 1 * (y 1).val = off + (y 1).val; omega

/-- First point of a row tile: the accumulator ends at (bias broadcast) + the two products of this point's blocks. -/
theorem scratch_first (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x8192 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x8192 .f32) (harg11 : arg11.IsWhole) (hc0 : cond0_0 i) (hc1 : ¬cond0_1 i) (x0 : Vec F S256x128 .bf16) (x1 : Vec F S256x128 .bf16) (x2 : Vec F S8192x128 .bf16) (x3 : Vec F S8192x128 .bf16) (x4 : Vec F S1x8192 .f32) (x5 : Vec F S256x2048 .f32) :
    sout0_A_0 c i arg2 harg2 arg3 harg3 arg4 harg4 arg5 harg5 arg6 harg6 arg7 harg7 arg8 harg8 arg9 harg9 arg10 harg10 arg11 harg11 hc0 hc1 x0 x1 x2 x3 x4 x5 = k0_pay2 x0 x2 x1 x3 (k0_pay1 x4) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S256x8192) hz, View.readCov_unit_zero (S := S256x8192) _ hz]
  simp only [View.readAt_eq_ld, harg2.read_unread, harg3.read_unread, harg4.read_unread, harg5.read_unread,
    harg6.read_unread, View.ld_unit_zero (S := S256x128) hz, View.ld_unit_zero (S := S8192x128) hz,
    View.ld_unit_zero (S := S1x8192) hz]

/-- A middle point: the accumulator ends at (what it held) + the two products of this point's blocks. -/
theorem scratch_middle (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x8192 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x8192 .f32) (harg11 : arg11.IsWhole) (hc0 : ¬cond0_0 i) (hc1 : ¬cond0_1 i) (x0 : Vec F S256x128 .bf16) (x1 : Vec F S256x128 .bf16) (x2 : Vec F S8192x128 .bf16) (x3 : Vec F S8192x128 .bf16) (x4 : Vec F S1x8192 .f32) (x5 : Vec F S256x2048 .f32) (xs0 : Vec F S256x8192 .f32) :
    sout0_B_0 c i arg2 harg2 arg3 harg3 arg4 harg4 arg5 harg5 arg6 harg6 arg7 harg7 arg8 harg8 arg9 harg9 arg10 harg10 arg11 harg11 hc0 hc1 x0 x1 x2 x3 x4 x5 xs0 = k0_pay2 x0 x2 x1 x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 xs0)]
  unfold kernelRun0_B
  dsimp only
  rw [View.canon_unit_zero hz]
  simp only [View.readAt_eq_ld, harg2.read_unread, harg3.read_unread, harg4.read_unread, harg5.read_unread,
    harg11.read_unread, View.ld_unit_zero (S := S256x128) hz, View.ld_unit_zero (S := S8192x128) hz,
    View.ld_unit_zero (S := S256x8192) hz]

/-- The last point of a row tile: the accumulator, likewise. -/
theorem scratch_last (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x8192 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x8192 .f32) (harg11 : arg11.IsWhole) (hc0 : ¬cond0_0 i) (hc1 : cond0_1 i) (x0 : Vec F S256x128 .bf16) (x1 : Vec F S256x128 .bf16) (x2 : Vec F S8192x128 .bf16) (x3 : Vec F S8192x128 .bf16) (x4 : Vec F S1x8192 .f32) (x5 : Vec F S256x2048 .f32) (xs0 : Vec F S256x8192 .f32) :
    sout0_C_0 c i arg2 harg2 arg3 harg3 arg4 harg4 arg5 harg5 arg6 harg6 arg7 harg7 arg8 harg8 arg9 harg9 arg10 harg10 arg11 harg11 hc0 hc1 x0 x1 x2 x3 x4 x5 xs0 = k0_pay2 x0 x2 x1 x3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 xs0)]
  unfold kernelRun0_C
  dsimp only
  sl_unfold_words
  rw [View.canon_unit_zero hz]
  simp only [View.readAt_eq_ld, harg2.read_unread, harg3.read_unread, harg4.read_unread, harg5.read_unread,
    harg11.read_unread, View.ld_unit_zero (S := S256x128) hz, View.ld_unit_zero (S := S8192x128) hz,
    View.ld_unit_zero (S := S256x8192) hz]

/-- The last point: the block of the next hidden state, from the four column ranges of the fresh accumulator and c. -/
theorem h_block (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x8192 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x8192 .f32) (harg11 : arg11.IsWhole) (hc0 : ¬cond0_0 i) (hc1 : cond0_1 i) (x0 : Vec F S256x128 .bf16) (x1 : Vec F S256x128 .bf16) (x2 : Vec F S8192x128 .bf16) (x3 : Vec F S8192x128 .bf16) (x4 : Vec F S1x8192 .f32) (x5 : Vec F S256x2048 .f32) (xs0 : Vec F S256x8192 .f32) :
    out0_C_6 c i arg2 harg2 arg3 harg3 arg4 harg4 arg5 harg5 arg6 harg6 arg7 harg7 arg8 harg8 arg9 harg9 arg10 harg10 arg11 harg11 hc0 hc1 x0 x1 x2 x3 x4 x5 xs0
      = k0_pay5 (cols 0 (by decide) (k0_pay2 x0 x2 x1 x3 xs0)) (cols 2048 (by decide) (k0_pay2 x0 x2 x1 x3 xs0))
          (cols 4096 (by decide) (k0_pay2 x0 x2 x1 x3 xs0)) (cols 6144 (by decide) (k0_pay2 x0 x2 x1 x3 xs0)) x5 := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 x4 x5 xs0)]
  unfold kernelRun0_C
  dsimp only
  sl_unfold_words
  rw [View.canon_unit_zero hz]
  simp only [View.readCov_whole_store_rect (S := S256x8192) _ hz]
  simp only [View.readAt_eq_ld, harg2.read_unread, harg3.read_unread, harg4.read_unread, harg5.read_unread,
    harg7.read_unread, harg11.read_unread, View.ld_unit_zero (S := S256x128) hz, View.ld_unit_zero (S := S8192x128) hz,
    View.ld_unit_zero (S := S256x8192) hz, View.ld_unit_zero (S := S256x2048) hz]
  rw [ld_cols 0 (by decide), ld_cols 2048 (by decide), ld_cols 4096 (by decide), ld_cols 6144 (by decide)]

/-- The last point: the block of the next cell state. -/
theorem c_block (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x8192 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x8192 .f32) (harg11 : arg11.IsWhole) (hc0 : ¬cond0_0 i) (hc1 : cond0_1 i) (x0 : Vec F S256x128 .bf16) (x1 : Vec F S256x128 .bf16) (x2 : Vec F S8192x128 .bf16) (x3 : Vec F S8192x128 .bf16) (x4 : Vec F S1x8192 .f32) (x5 : Vec F S256x2048 .f32) (xs0 : Vec F S256x8192 .f32) :
    out0_C_7 c i arg2 harg2 arg3 harg3 arg4 harg4 arg5 harg5 arg6 harg6 arg7 harg7 arg8 harg8 arg9 harg9 arg10 harg10 arg11 harg11 hc0 hc1 x0 x1 x2 x3 x4 x5 xs0
      = k0_pay4 (cols 0 (by decide) (k0_pay2 x0 x2 x1 x3 xs0)) (cols 2048 (by decide) (k0_pay2 x0 x2 x1 x3 xs0))
          (cols 4096 (by decide) (k0_pay2 x0 x2 x1 x3 xs0)) x5 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 xs0)]
  unfold kernelRun0_C
  dsimp only
  sl_unfold_words
  rw [View.canon_unit_zero hz]
  simp only [View.readCov_whole_store_rect (S := S256x8192) _ hz]
  simp only [View.readAt_eq_ld, harg2.read_unread, harg3.read_unread, harg4.read_unread, harg5.read_unread,
    harg7.read_unread, harg11.read_unread, View.ld_unit_zero (S := S256x128) hz, View.ld_unit_zero (S := S8192x128) hz,
    View.ld_unit_zero (S := S256x8192) hz, View.ld_unit_zero (S := S256x2048) hz]
  rw [ld_cols 0 (by decide), ld_cols 2048 (by decide), ld_cols 4096 (by decide)]

/-- The last point: the block of the output gate. -/
theorem o_block (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x8192 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x8192 .f32) (harg11 : arg11.IsWhole) (hc0 : ¬cond0_0 i) (hc1 : cond0_1 i) (x0 : Vec F S256x128 .bf16) (x1 : Vec F S256x128 .bf16) (x2 : Vec F S8192x128 .bf16) (x3 : Vec F S8192x128 .bf16) (x4 : Vec F S1x8192 .f32) (x5 : Vec F S256x2048 .f32) (xs0 : Vec F S256x8192 .f32) :
    out0_C_8 c i arg2 harg2 arg3 harg3 arg4 harg4 arg5 harg5 arg6 harg6 arg7 harg7 arg8 harg8 arg9 harg9 arg10 harg10 arg11 harg11 hc0 hc1 x0 x1 x2 x3 x4 x5 xs0 = k0_pay3 (cols 6144 (by decide) (k0_pay2 x0 x2 x1 x3 xs0)) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 xs0)]
  unfold kernelRun0_C
  dsimp only
  sl_unfold_words
  rw [View.canon_unit_zero hz]
  simp only [View.readCov_whole_store_rect (S := S256x8192) _ hz]
  simp only [View.readAt_eq_ld, harg2.read_unread, harg3.read_unread, harg4.read_unread, harg5.read_unread,
    harg11.read_unread, View.ld_unit_zero (S := S256x128) hz, View.ld_unit_zero (S := S8192x128) hz,
    View.ld_unit_zero (S := S256x8192) hz]
  rw [ld_cols 6144 (by decide)]

end Cert.KernelIdeal.LstmPieces

end
-- ==== Proof.LibMatmulNT.lean ====
/-
  A rank-2 by rank-2 matrix product against a TRANSPOSED right operand, read at an index, at the ideal instance.

  For dimension numbers that contract the left operand's axis 1 with the right operand's axis 1 (a[M, K] against
  b[N, K], the product a · bᵀ with no transpose operation) and have no batch axis, the entry (r, c) of the product
  into a zero accumulator is the plain sum over k of a(r, k) * b(c, k) on the extended reals. The two side facts
  about the free axes (hl0, hr0) are decided once per literal record of dimension numbers.
-/
import Idealize.ShloMosaic.PureOps.Ideal.Laws
import Idealize.ShloMosaic.Lib.ValueIdx

noncomputable section

namespace Idealize.ShloMosaic.MatmulNT

open Idealize.ShloMosaic Idealize.ShloMosaic.ValueIdx

variable {M K N : Nat} {φ₁ φ₂ : FTy}

/-- The operand indices of such a product at output index `i` and contraction position `k` are (i 0, k) and (i 1, k). -/
theorem operand_indices
    (d : DotDims (⟨2, ![M, K]⟩ : Shape) (⟨2, ![N, K]⟩ : Shape) (⟨2, ![M, N]⟩ : Shape))
    (hcl : d.lhsContracting = [1]) (hcr : d.rhsContracting = [1])
    (hrk : d.contr.rank = 1) (hs : d.contr.size ⟨0, by omega⟩ = K)
    (hl0 : ∀ i q, (d.lhsIdx i q 0).val = (i 0).val) (hr0 : ∀ i q, (d.rhsIdx i q 0).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 (i 1) k := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact hr0 _ _
    | ⟨1, _⟩ => exact (d.rhsIdx_val_of_single hcr _ _).trans hk

/-- A kernel's product a · bᵀ into the zero accumulator, entry by entry. -/
theorem matmul_zero_apply
    (d : DotDims (⟨2, ![M, K]⟩ : Shape) (⟨2, ![N, K]⟩ : Shape) (⟨2, ![M, N]⟩ : Shape)) (prec : Option ContractPrecision)
    (hcl : d.lhsContracting = [1]) (hcr : d.rhsContracting = [1])
    (hrk : d.contr.rank = 1) (hs : d.contr.size ⟨0, by omega⟩ = K)
    (hl0 : ∀ i q, (d.lhsIdx i q 0).val = (i 0).val) (hr0 : ∀ i q, (d.rhsIdx i q 0).val = (i 1).val)
    (a : FVec Ideal (⟨2, ![M, K]⟩ : Shape) φ₁) (b : FVec Ideal (⟨2, ![N, K]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 (i 1) k) := by
  rw [Ideal.matmul_constant_zero_apply, ← Equiv.sum_comp (contrEquiv1 d K hrk hs).symm]
  refine Finset.sum_congr rfl fun k _ => ?_
  obtain ⟨el, er⟩ := operand_indices d hcl hcr hrk hs hl0 hr0 i k
  rw [el, er]
  rfl

end Idealize.ShloMosaic.MatmulNT

end
-- ==== Proof.LstmPayload.lean ====
/-
  The body's arithmetic at an index, over the extended reals.

    * the bias payload: the [1, 8192] bias row broadcast down 256 rows, so entry (r, g) is the row's entry (0, g);
    * the accumulate payload: entry (r, g) of acc + (a · bᵀ + a' · b'ᵀ) is
          acc(r, g) + (Σ_{k < 128} a(r, k) · b(g, k) + Σ_{k < 128} a'(r, k) · b'(g, k)),
      each product being a matrix unit's product into a zero accumulator that contracts the second axis of both
      operands (the change of float format of the operands is the identity on the extended reals);
    * the three gate payloads are pointwise: σ(u), σ(f)·c + σ(i)·tanh(s), and σ(o)·tanh(σ(f)·c + σ(i)·tanh(s)).
-/
import proofs.«175771_j89867895701841_2_alg».proof.Proof.Gen.KernelIdeal.Skeleton
import proofs.«175771_j89867895701841_2_alg».proof.Proof.LibMatmulNT
import Idealize.ShloMosaic.Lib.Pipeline.Value
import Idealize.ShloMosaic.Lib.ValueIdx
import Idealize.ShloMosaic.PureOps.Ideal.Laws

noncomputable section

open scoped BigOperators

namespace Cert.KernelIdeal.LstmPayload

open Cert.KernelIdeal Cert.KernelIdeal.Gen Idealize.ShloMosaic Idealize.ShloMosaic.ValueIdx

/-- The free axis of the left operand of the body's products is the output's row. -/
theorem lhs_row (i : S256x8192.Idx) (q : dot_S256x128_S8192x128_S256x8192_1_1_0_0_n_n.contr.Idx) :
    (dot_S256x128_S8192x128_S256x8192_1_1_0_0_n_n.lhsIdx i q 0).val = (i 0).val := by
  unfold DotDims.lhsIdx
  rw [dif_neg (show ¬(0 : Fin S256x128.rank) ∈ dot_S256x128_S8192x128_S256x8192_1_1_0_0_n_n.lhsBatch by decide),
    dif_pos (show (0 : Fin S256x128.rank) ∈ dot_S256x128_S8192x128_S256x8192_1_1_0_0_n_n.lhsNonContracting by decide)]
  rfl

/-- The free axis of the right operand of the body's products is the output's column. -/
theorem rhs_row (i : S256x8192.Idx) (q : dot_S256x128_S8192x128_S256x8192_1_1_0_0_n_n.contr.Idx) :
    (dot_S256x128_S8192x128_S256x8192_1_1_0_0_n_n.rhsIdx i q 0).val = (i 1).val := by
  unfold DotDims.rhsIdx
  rw [dif_neg (show ¬(0 : Fin S8192x128.rank) ∈ dot_S256x128_S8192x128_S256x8192_1_1_0_0_n_n.rhsBatch by decide),
    dif_pos (show (0 : Fin S8192x128.rank) ∈ dot_S256x128_S8192x128_S256x8192_1_1_0_0_n_n.rhsNonContracting by decide)]
  rfl

/-- One of the body's products into the zero accumulator: entry (r, g) is Σ_k a(r, k) · b(g, k). -/
theorem product_at (a : FVec Ideal S256x128 .bf16) (b : FVec Ideal S8192x128 .bf16) (i : S256x8192.Idx) :
    FloatOps.matmul dot_S256x128_S8192x128_S256x8192_1_1_0_0_n_n none a b
        (constant (F := Ideal) S256x8192 .f32 0x00000000#32) i
      = ∑ k : Fin 128, a (ix2 (i 0) k) * b (ix2 (i 1) k) :=
  MatmulNT.matmul_zero_apply dot_S256x128_S8192x128_S256x8192_1_1_0_0_n_n none rfl rfl rfl rfl lhs_row rhs_row a b i

/-- The bias payload at (r, g) is the bias row's entry (0, g). -/
theorem bias_at (x4 : Vec Ideal S1x8192 .f32) (r : Fin 256) (g : Fin 8192) :
    k0_pay1 (F := Ideal) x4 (ix2 r g) = x4 (ix2 0 g) := by
  unfold k0_pay1
  simp only [shapeCast_self]
  exact broadcastTo_apply x4 broadcasts_S1x8192_S256x8192 (ix2 r g) (ix2 0 g) (fun a => by
    match a with
    | ⟨0, _⟩ => show (0 : ℕ) = if (1 : ℕ) = 1 then 0 else r.val; rw [if_pos rfl]
    | ⟨1, _⟩ => show g.val = if (8192 : ℕ) = 1 then 0 else g.val; rw [if_neg (by decide)])

/-- The accumulate payload at an index. -/
theorem accumulate_at (a : Vec Ideal S256x128 .bf16) (b : Vec Ideal S8192x128 .bf16) (a' : Vec Ideal S256x128 .bf16)
    (b' : Vec Ideal S8192x128 .bf16) (acc : Vec Ideal S256x8192 .f32) (i : S256x8192.Idx) :
    k0_pay2 (F := Ideal) a b a' b' acc i
      = acc i + ((∑ k : Fin 128, a (ix2 (i 0) k) * b (ix2 (i 1) k)) + (∑ k : Fin 128, a' (ix2 (i 0) k) * b' (ix2 (i 1) k))) := by
  unfold k0_pay2
  simp only [shapeCast_self]
  show acc i + (FloatOps.matmul dot_S256x128_S8192x128_S256x8192_1_1_0_0_n_n none a b
        (constant (F := Ideal) S256x8192 .f32 0x00000000#32) i
      + FloatOps.matmul dot_S256x128_S8192x128_S256x8192_1_1_0_0_n_n none a' b'
        (constant (F := Ideal) S256x8192 .f32 0x00000000#32) i) = _
  rw [product_at, product_at]

/-- The output-gate payload at an index. -/
theorem o_at (u : Vec Ideal S256x2048 .f32) (y : S256x2048.Idx) :
    k0_pay3 (F := Ideal) u y = Ideal.logistic (u y) := rfl

/-- The cell-state payload at an index. -/
theorem c_at (f i' s cc : Vec Ideal S256x2048 .f32) (y : S256x2048.Idx) :
    k0_pay4 (F := Ideal) f i' s cc y = Ideal.logistic (f y) * cc y + Ideal.logistic (i' y) * Ideal.tanh (s y) := rfl

/-- The hidden-state payload at an index. -/
theorem h_at (f i' s o cc : Vec Ideal S256x2048 .f32) (y : S256x2048.Idx) :
    k0_pay5 (F := Ideal) f i' s o cc y
      = Ideal.logistic (o y) * Ideal.tanh (Ideal.logistic (f y) * cc y + Ideal.logistic (i' y) * Ideal.tanh (s y)) := rfl

end Cert.KernelIdeal.LstmPayload

end
-- ==== Proof.LstmBlocks.lean ====
/-
  The input blocks of a grid point, as entries of the argument arrays (over the extended reals).

  The grid has 16 row tiles of 256 rows, and for each row tile 16 steps along the contraction axis in blocks of 128;
  point t is row tile t / 16 at step t % 16. Before the kernel is launched the host changes x, h, w_ih and w_hh to a
  narrower float format (the identity on the extended reals) and views the bias as one row. So at point t:
    * the x-block and the h-block are rows 256·(t/16) … +255 and columns 128·(t%16) … +127 of x and of h;
    * the w_ih-block and the w_hh-block are all 8192 rows and the same 128 columns of w_ih and of w_hh;
    * the bias block is the whole bias, as one row;
    * the c-block is rows 256·(t/16) … +255 and all 2048 columns of c.
  A block's coordinate on an axis is always (block index) · (block size) + (coordinate inside the block).
-/
import proofs.«175771_j89867895701841_2_alg».proof.Proof.Gen.KernelIdeal.Frame
import proofs.«175771_j89867895701841_2_alg».proof.Proof.LstmSpec
import Idealize.ShloMosaic.Lib.Pipeline.Value
import Idealize.ShloMosaic.Lib.StableHlo.Run
import Idealize.ShloMosaic.Lib.Tactic

noncomputable section

namespace Cert.KernelIdeal.LstmBlocks

open Cert.KernelIdeal Cert.KernelIdeal.Gen Cert.LstmSpec
open Idealize.ShloMosaic Idealize.ShloMosaic.TcCoe Idealize.SL.Sem Idealize.ShloMosaic.ValueIdx Idealize.ShloMosaic.BlockSum

variable (m : (ℓ : Loc nD τ sig) → Buf (Elt Ideal) ℓ)

/-! ## The arrays the region finds -/

/-- The staged copy of x is x. -/
theorem found_x (c : Dev nD) : (V m c main_v0 : S4096x2048.Idx → EReal) = m ((c : Thread nD τ).loc main_arg0) := by
  dsimp only [Gen.V, Gen.hostOps0]; after_results; rfl
/-- The staged copy of h is h. -/
theorem found_h (c : Dev nD) : (V m c main_v1 : S4096x2048.Idx → EReal) = m ((c : Thread nD τ).loc main_arg1) := by
  dsimp only [Gen.V, Gen.hostOps0]; after_results; rfl
/-- The staged copy of w_ih is w_ih. -/
theorem found_wi (c : Dev nD) : (V m c main_v2 : S8192x2048.Idx → EReal) = m ((c : Thread nD τ).loc main_arg4) := by
  dsimp only [Gen.V, Gen.hostOps0]; after_results; rfl
/-- The staged copy of w_hh is w_hh. -/
theorem found_wh (c : Dev nD) : (V m c main_v3 : S8192x2048.Idx → EReal) = m ((c : Thread nD τ).loc main_arg5) := by
  dsimp only [Gen.V, Gen.hostOps0]; after_results; rfl
/-- The bias as one row. -/
theorem found_b (c : Dev nD) : (V m c main_v4 : S1x8192.Idx → EReal)
    = shapeCast S1x8192 (m ((c : Thread nD τ).loc main_arg6)) shapeCasts_S8192_S1x8192 := by
  dsimp only [Gen.V, Gen.hostOps0]; after_results; rfl

/-! ## The printed index maps, decided once over the grid -/

theorem index_facts : ∀ t : Fin cfg0.N,
    win0_0.index t (0 : Fin 2) = t.val / 16 ∧ win0_0.index t (1 : Fin 2) = t.val % 16
    ∧ win0_1.index t (0 : Fin 2) = t.val / 16 ∧ win0_1.index t (1 : Fin 2) = t.val % 16
    ∧ win0_2.index t (0 : Fin 2) = 0 ∧ win0_2.index t (1 : Fin 2) = t.val % 16
    ∧ win0_3.index t (0 : Fin 2) = 0 ∧ win0_3.index t (1 : Fin 2) = t.val % 16
    ∧ win0_4.index t (0 : Fin 2) = 0 ∧ win0_4.index t (1 : Fin 2) = 0
    ∧ win0_5.index t (0 : Fin 2) = t.val / 16 ∧ win0_5.index t (1 : Fin 2) = 0 :=
  (by decide +kernel : ∀ t : Fin grid0.N, _)

/-! ## Each input block at natural coordinates of its argument -/

/-- The x-block. -/
theorem x_block (c : Dev nD) (t : Fin cfg0.N) (r : Fin 256) (j : Fin 128) :
    iblk m c 0 t (ix2 r j)
      = at2 (m ((c : Thread nD τ).loc main_arg0)) (256 * (t.val / 16) + r.val) (128 * (t.val % 16) + j.val) := by
  obtain ⟨e0, e1, -⟩ := index_facts t
  unfold iblk
  rw [View.read_apply]
  show (V m c main_v0 : S4096x2048.Idx → EReal) _ = _
  rw [found_x]
  refine (at2_val _ _).symm.trans ?_
  refine congrArg₂ (at2 _) ?_ ?_
  · show win0_0.index t (0 : Fin 2) * 256 + 1 * r.val = _; rw [e0]; omega
  · show win0_0.index t (1 : Fin 2) * 128 + 1 * j.val = _; rw [e1]; omega

/-- The h-block. -/
theorem h_block (c : Dev nD) (t : Fin cfg0.N) (r : Fin 256) (j : Fin 128) :
    iblk m c 1 t (ix2 r j)
      = at2 (m ((c : Thread nD τ).loc main_arg1)) (256 * (t.val / 16) + r.val) (128 * (t.val % 16) + j.val) := by
  obtain ⟨-, -, e0, e1, -⟩ := index_facts t
  unfold iblk
  rw [View.read_apply]
  show (V m c main_v1 : S4096x2048.Idx → EReal) _ = _
  rw [found_h]
  refine (at2_val _ _).symm.trans ?_
  refine congrArg₂ (at2 _) ?_ ?_
  · show win0_1.index t (0 : Fin 2) * 256 + 1 * r.val = _; rw [e0]; omega
  · show win0_1.index t (1 : Fin 2) * 128 + 1 * j.val = _; rw [e1]; omega

/-- The w_ih-block. -/
theorem wi_block (c : Dev nD) (t : Fin cfg0.N) (g : Fin 8192) (j : Fin 128) :
    iblk m c 2 t (ix2 g j) = at2 (m ((c : Thread nD τ).loc main_arg4)) g.val (128 * (t.val % 16) + j.val) := by
  obtain ⟨-, -, -, -, e0, e1, -⟩ := index_facts t
  unfold iblk
  rw [View.read_apply]
  show (V m c main_v2 : S8192x2048.Idx → EReal) _ = _
  rw [found_wi]
  refine (at2_val _ _).symm.trans ?_
  refine congrArg₂ (at2 _) ?_ ?_
  · show win0_2.index t (0 : Fin 2) * 8192 + 1 * g.val = _; rw [e0]; omega
  · show win0_2.index t (1 : Fin 2) * 128 + 1 * j.val = _; rw [e1]; omega

/-- The w_hh-block. -/
theorem wh_block (c : Dev nD) (t : Fin cfg0.N) (g : Fin 8192) (j : Fin 128) :
    iblk m c 3 t (ix2 g j) = at2 (m ((c : Thread nD τ).loc main_arg5)) g.val (128 * (t.val % 16) + j.val) := by
  obtain ⟨-, -, -, -, -, -, e0, e1, -⟩ := index_facts t
  unfold iblk
  rw [View.read_apply]
  show (V m c main_v3 : S8192x2048.Idx → EReal) _ = _
  rw [found_wh]
  refine (at2_val _ _).symm.trans ?_
  refine congrArg₂ (at2 _) ?_ ?_
  · show win0_3.index t (0 : Fin 2) * 8192 + 1 * g.val = _; rw [e0]; omega
  · show win0_3.index t (1 : Fin 2) * 128 + 1 * j.val = _; rw [e1]; omega

/-- The bias block: entry (0, g) of the one-row view is b(g). -/
theorem b_block (c : Dev nD) (t : Fin cfg0.N) (g : Fin 8192) :
    iblk m c 4 t (ix2 0 g) = at1 (m ((c : Thread nD τ).loc main_arg6)) g.val := by
  obtain ⟨-, -, -, -, -, -, -, -, e0, e1, -⟩ := index_facts t
  unfold iblk
  rw [View.read_apply]
  show (V m c main_v4 : S1x8192.Idx → EReal) _ = _
  rw [found_b, at1_ix1]
  refine shapeCast_apply _ shapeCasts_S8192_S1x8192 _ (ix1 g) ?_
  rw [Shape.rowMajor_val_one, Shape.rowMajor_val_two]
  show g.val = (win0_4.index t (0 : Fin 2) * 1 + 1 * 0) * 8192 + (win0_4.index t (1 : Fin 2) * 8192 + 1 * g.val)
  rw [e0, e1]; omega

/-- The c-block. -/
theorem c_block (c : Dev nD) (t : Fin cfg0.N) (r : Fin 256) (q : Fin 2048) :
    iblk m c 5 t (ix2 r q) = at2 (m ((c : Thread nD τ).loc main_arg2)) (256 * (t.val / 16) + r.val) q.val := by
  obtain ⟨-, -, -, -, -, -, -, -, -, -, e0, e1⟩ := index_facts t
  unfold iblk
  rw [View.read_apply]
  show (V m c main_arg2 : S4096x2048.Idx → EReal) _ = _
  rw [V_main_arg2]
  refine (at2_val _ _).symm.trans ?_
  refine congrArg₂ (at2 _) ?_ ?_
  · show win0_5.index t (0 : Fin 2) * 256 + 1 * r.val = _; rw [e0]; omega
  · show win0_5.index t (1 : Fin 2) * 2048 + 1 * q.val = _; rw [e1]; omega

/-! ## The output windows' index maps -/

/-- Each result block of point t is rows 256·(t/16) … +255 and all 2048 columns of its array. -/
theorem out_index_facts : ∀ t : Fin cfg0.N,
    win0_6.index t (0 : Fin 2) = t.val / 16 ∧ win0_6.index t (1 : Fin 2) = 0
    ∧ win0_7.index t (0 : Fin 2) = t.val / 16 ∧ win0_7.index t (1 : Fin 2) = 0
    ∧ win0_8.index t (0 : Fin 2) = t.val / 16 ∧ win0_8.index t (1 : Fin 2) = 0 :=
  (by decide +kernel : ∀ t : Fin grid0.N, _)

end Cert.KernelIdeal.LstmBlocks

end
-- ==== Proof.LstmAcc.lean ====
/-
  The accumulator across the sixteen points of a row tile.

  After point t = 16·i + k (row tile i, contraction step k) the scratch accumulator holds, at row r and gate column g,
      b(g) + Σ_{k' ≤ k} ( Σ_{j<128} x(256i + r, 128k' + j) · w_ih(g, 128k' + j)
                          + Σ_{j<128} h(256i + r, 128k' + j) · w_hh(g, 128k' + j) ),
  the blocks added in the order k' = 0, 1, …, k. At k = 0 the body first overwrites the accumulator with the bias, so
  nothing of the previous row tile survives; at every later step it adds this step's block to what the step before
  left. The statement is proved by induction on the point, with no enumeration of the 256 points. After the last
  step, k = 15, the accumulator is the pre-activation z(256i + r, g) of the specification.
-/
import proofs.«175771_j89867895701841_2_alg».proof.Proof.Gen.KernelIdeal.Value
import proofs.«175771_j89867895701841_2_alg».proof.Proof.LstmPieces
import proofs.«175771_j89867895701841_2_alg».proof.Proof.LstmPayload
import proofs.«175771_j89867895701841_2_alg».proof.Proof.LstmBlocks
import proofs.«175771_j89867895701841_2_alg».proof.Proof.LstmSpec

noncomputable section

open scoped BigOperators

namespace Cert.KernelIdeal.LstmAcc

open Cert.KernelIdeal Cert.KernelIdeal.Gen Cert.LstmSpec
open Idealize.ShloMosaic Idealize.ShloMosaic.TcCoe Idealize.SL.Sem Idealize.ShloMosaic.ValueIdx Idealize.ShloMosaic.BlockSum

variable (m : (ℓ : Loc nD τ sig) → Buf (Elt Ideal) ℓ)

/-- The argument arrays on core c, under the specification's names. -/
abbrev aX (c : Dev nD) : Mat 4096 2048 := m ((c : Thread nD τ).loc main_arg0)
abbrev aH (c : Dev nD) : Mat 4096 2048 := m ((c : Thread nD τ).loc main_arg1)
abbrev aC (c : Dev nD) : Mat 4096 2048 := m ((c : Thread nD τ).loc main_arg2)
abbrev aWi (c : Dev nD) : Mat 8192 2048 := m ((c : Thread nD τ).loc main_arg4)
abbrev aWh (c : Dev nD) : Mat 8192 2048 := m ((c : Thread nD τ).loc main_arg5)
abbrev aB (c : Dev nD) : Vct 8192 := m ((c : Thread nD τ).loc main_arg6)

/-- One accumulate step with point t's blocks adds the (t % 16)-th block's contribution of row tile t / 16. -/
theorem step_at (c : Dev nD) (t : Fin cfg0.N) (acc : Vec Ideal S256x8192 .f32) (r : Fin 256) (g : Fin 8192) :
    k0_pay2 (F := Ideal) (iblk m c 0 t) (iblk m c 2 t) (iblk m c 1 t) (iblk m c 3 t) acc (ix2 r g)
      = acc (ix2 r g)
        + blockTerm (aX m c) (aH m c) (aWi m c) (aWh m c) (256 * (t.val / 16) + r.val) g.val (t.val % 16) := by
  refine (LstmPayload.accumulate_at (iblk m c 0 t) (iblk m c 2 t) (iblk m c 1 t) (iblk m c 3 t) acc (ix2 r g)).trans ?_
  unfold blockTerm
  refine congrArg (acc (ix2 r g) + ·) (congrArg₂ (· + ·) ?_ ?_)
  · refine Eq.trans ?_ (sum_fin_eq_range 128 (fun j =>
      at2 (aX m c) (256 * (t.val / 16) + r.val) (128 * (t.val % 16) + j) * at2 (aWi m c) g.val (128 * (t.val % 16) + j)))
    refine Finset.sum_congr rfl fun k _ => ?_
    exact congrArg₂ (· * ·) (LstmBlocks.x_block m c t r k) (LstmBlocks.wi_block m c t g k)
  · refine Eq.trans ?_ (sum_fin_eq_range 128 (fun j =>
      at2 (aH m c) (256 * (t.val / 16) + r.val) (128 * (t.val % 16) + j) * at2 (aWh m c) g.val (128 * (t.val % 16) + j)))
    refine Finset.sum_congr rfl fun k _ => ?_
    exact congrArg₂ (· * ·) (LstmBlocks.h_block m c t r k) (LstmBlocks.wh_block m c t g k)

/-- What the accumulate step of point t is applied to: the bias broadcast at the first point of a row tile, what the
    point before left otherwise. -/
def before (c : Dev nD) (t : Fin cfg0.N) : Vec Ideal S256x8192 .f32 :=
  if t.val % 16 = 0 then k0_pay1 (iblk m c 4 t)
  else (outsAt0 m c (t.val - 1) (Nat.lt_of_le_of_lt (Nat.sub_le _ _) t.isLt)).2.2.2

/-- At every point the accumulator ends at the accumulate step of that point's blocks applied to before. -/
theorem scratch_eq (c : Dev nD) (t : Fin cfg0.N) :
    (outsAt0 m c t.val t.isLt).2.2.2
      = k0_pay2 (iblk m c 0 t) (iblk m c 2 t) (iblk m c 1 t) (iblk m c 3 t) (before m c t) := by
  have hN : t.val < 256 := lt_of_lt_of_eq t.isLt (show cfg0.N = 256 from N_0)
  unfold before
  by_cases h0 : t.val % 16 = 0
  · have h1 : ¬t.val % 16 = 15 := by omega
    rw [if_pos h0, outsAt0_A m c t h0 h1]
    dsimp only
    exact LstmPieces.scratch_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)
  · rw [if_neg h0]
    by_cases h1 : t.val % 16 = 15
    · rw [outsAt0_C m c t h0 h1]
      dsimp only
      exact LstmPieces.scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t)
        (outsAt0 m c (t.val - 1) (Nat.lt_of_le_of_lt (Nat.sub_le _ _) t.isLt)).2.2.2
    · rw [outsAt0_B m c t h0 h1]
      dsimp only
      exact LstmPieces.scratch_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t)
        (outsAt0 m c (t.val - 1) (Nat.lt_of_le_of_lt (Nat.sub_le _ _) t.isLt)).2.2.2

/-- At a point that is not the first of its row tile: the step applied to what the point before left. -/
theorem scratch_eq_later (c : Dev nD) (t : Fin cfg0.N) (h0 : ¬t.val % 16 = 0) :
    k0_pay2 (iblk m c 0 t) (iblk m c 2 t) (iblk m c 1 t) (iblk m c 3 t)
        (outsAt0 m c (t.val - 1) (Nat.lt_of_le_of_lt (Nat.sub_le _ _) t.isLt)).2.2.2
      = (outsAt0 m c t.val t.isLt).2.2.2 := by
  rw [scratch_eq m c t]
  unfold before
  rw [if_neg h0]

/-- THE INVARIANT: after point n the accumulator holds the bias plus the first n % 16 + 1 blocks of row tile n / 16. -/
theorem acc_after (c : Dev nD) : ∀ (n : ℕ) (hn : n < cfg0.N) (r : Fin 256) (g : Fin 8192),
    (outsAt0 m c n hn).2.2.2 (ix2 r g)
      = accUpTo (aX m c) (aH m c) (aWi m c) (aWh m c) (aB m c) (256 * (n / 16) + r.val) g.val (n % 16 + 1) := by
  intro n
  induction n with
  | zero =>
    intro hn r g
    refine (congrFun (scratch_eq m c ⟨0, hn⟩) (ix2 r g)).trans ?_
    refine (step_at m c ⟨0, hn⟩ (before m c ⟨0, hn⟩) r g).trans ?_
    rw [accUpTo_succ]
    refine congrArg₂ (· + ·) ?_ rfl
    show before m c ⟨0, hn⟩ (ix2 r g) = accUpTo _ _ _ _ _ _ _ 0
    unfold before
    rw [if_pos (by rfl), accUpTo_zero]
    exact (LstmPayload.bias_at (iblk m c 4 ⟨0, hn⟩) r g).trans (LstmBlocks.b_block m c ⟨0, hn⟩ g)
  | succ n ih =>
    intro hn r g
    have hN : n + 1 < 256 := lt_of_lt_of_eq hn (show cfg0.N = 256 from N_0)
    refine (congrFun (scratch_eq m c ⟨n + 1, hn⟩) (ix2 r g)).trans ?_
    refine (step_at m c ⟨n + 1, hn⟩ (before m c ⟨n + 1, hn⟩) r g).trans ?_
    rw [accUpTo_succ]
    refine congrArg₂ (· + ·) ?_ rfl
    show before m c ⟨n + 1, hn⟩ (ix2 r g) = accUpTo _ _ _ _ _ (256 * ((n + 1) / 16) + r.val) g.val ((n + 1) % 16)
    unfold before
    by_cases h0 : (n + 1) % 16 = 0
    · rw [if_pos h0, h0, accUpTo_zero]
      exact (LstmPayload.bias_at (iblk m c 4 ⟨n + 1, hn⟩) r g).trans (LstmBlocks.b_block m c ⟨n + 1, hn⟩ g)
    · rw [if_neg h0]
      have hq : (n + 1) / 16 = n / 16 := by omega
      have hm : (n + 1) % 16 = n % 16 + 1 := by omega
      rw [hq, hm]
      exact ih (Nat.lt_of_succ_lt hn) r g

/-- After the last point of a row tile the accumulator is the specification's pre-activation. -/
theorem acc_last (c : Dev nD) (t : Fin cfg0.N) (h15 : t.val % 16 = 15) (r : Fin 256) (g : Fin 8192) :
    (outsAt0 m c t.val t.isLt).2.2.2 (ix2 r g)
      = pre (aX m c) (aH m c) (aWi m c) (aWh m c) (aB m c) (256 * (t.val / 16) + r.val) g.val := by
  rw [acc_after m c t.val t.isLt r g, h15]
  exact accUpTo_sixteen _ _ _ _ _ _ _

end Cert.KernelIdeal.LstmAcc

end
-- ==== Proof.LstmFinal.lean ====
/-
  The three result arrays after the run.

  Only the last point of each row tile (contraction step 15) stores into the result blocks and has them written back.
  By then the accumulator holds the pre-activation z of the row tile's 256 rows, so the three blocks that point t
  writes back are rows 256·(t/16) … +255 of the specification's h', c' and o: the four column ranges of the
  accumulator read back at that point are the four gates' columns q, 2048 + q, 4096 + q and 6144 + q of z. The sixteen
  row tiles cover the 4096 rows — row R lies in the block written at the last point of row tile R / 256 — so each
  result array ends holding the specification's array everywhere.
-/
import proofs.«175771_j89867895701841_2_alg».proof.Proof.Gen.KernelIdeal.Value
import proofs.«175771_j89867895701841_2_alg».proof.Proof.LstmAcc

noncomputable section

namespace Cert.KernelIdeal.LstmFinal

open Cert.KernelIdeal Cert.KernelIdeal.Gen Cert.LstmSpec Cert.KernelIdeal.LstmAcc
open Idealize.ShloMosaic Idealize.ShloMosaic.TcCoe Idealize.SL.Sem Idealize.ShloMosaic.ValueIdx Idealize.ShloMosaic.BlockSum
open Idealize.ShloMosaic.Pipeline (Dat)

/-! ## The gate payloads over an accumulator that holds the pre-activation -/

section Gates

variable (X Hh : Mat 4096 2048) (Wi Wh : Mat 8192 2048) (Bv : Vct 8192) (Cc : Mat 4096 2048)

/-- The output gate's block entry. -/
theorem o_value (R : ℕ) (A : Vec Ideal S256x8192 .f32)
    (hA : ∀ (r : Fin 256) (g : Fin 8192), A (ix2 r g) = pre X Hh Wi Wh Bv (R + r.val) g.val)
    (r : Fin 256) (q : Fin 2048) :
    k0_pay3 (F := Ideal) (LstmPieces.cols 6144 (by decide) A) (ix2 r q) = gateO X Hh Wi Wh Bv (R + r.val) q.val := by
  rw [LstmPayload.o_at]
  show Ideal.logistic (A (ix2 r ⟨6144 + q.val, _⟩)) = _
  rw [hA]
  rfl

/-- The next cell state's block entry. -/
theorem c_value (R : ℕ) (A : Vec Ideal S256x8192 .f32) (cc : Vec Ideal S256x2048 .f32)
    (hA : ∀ (r : Fin 256) (g : Fin 8192), A (ix2 r g) = pre X Hh Wi Wh Bv (R + r.val) g.val)
    (hC : ∀ (r : Fin 256) (q : Fin 2048), cc (ix2 r q) = at2 Cc (R + r.val) q.val)
    (r : Fin 256) (q : Fin 2048) :
    k0_pay4 (F := Ideal) (LstmPieces.cols 0 (by decide) A) (LstmPieces.cols 2048 (by decide) A)
        (LstmPieces.cols 4096 (by decide) A) cc (ix2 r q)
      = cNext X Hh Wi Wh Bv Cc (R + r.val) q.val := by
  rw [LstmPayload.c_at]
  show Ideal.logistic (A (ix2 r ⟨0 + q.val, _⟩)) * cc (ix2 r q)
      + Ideal.logistic (A (ix2 r ⟨2048 + q.val, _⟩)) * Ideal.tanh (A (ix2 r ⟨4096 + q.val, _⟩)) = _
  rw [hA, hA, hA, hC]
  unfold cNext gateF gateI gateS
  simp only [Nat.zero_add]

/-- The next hidden state's block entry. -/
theorem h_value (R : ℕ) (A : Vec Ideal S256x8192 .f32) (cc : Vec Ideal S256x2048 .f32)
    (hA : ∀ (r : Fin 256) (g : Fin 8192), A (ix2 r g) = pre X Hh Wi Wh Bv (R + r.val) g.val)
    (hC : ∀ (r : Fin 256) (q : Fin 2048), cc (ix2 r q) = at2 Cc (R + r.val) q.val)
    (r : Fin 256) (q : Fin 2048) :
    k0_pay5 (F := Ideal) (LstmPieces.cols 0 (by decide) A) (LstmPieces.cols 2048 (by decide) A)
        (LstmPieces.cols 4096 (by decide) A) (LstmPieces.cols 6144 (by decide) A) cc (ix2 r q)
      = hNext X Hh Wi Wh Bv Cc (R + r.val) q.val := by
  rw [LstmPayload.h_at]
  show Ideal.logistic (A (ix2 r ⟨6144 + q.val, _⟩))
      * Ideal.tanh (Ideal.logistic (A (ix2 r ⟨0 + q.val, _⟩)) * cc (ix2 r q)
        + Ideal.logistic (A (ix2 r ⟨2048 + q.val, _⟩)) * Ideal.tanh (A (ix2 r ⟨4096 + q.val, _⟩))) = _
  rw [hA, hA, hA, hA, hC]
  unfold hNext cNext gateF gateI gateS gateO
  simp only [Nat.zero_add]

end Gates

variable (m : (ℓ : Loc nD τ sig) → Buf (Elt Ideal) ℓ) (ρ : Dev nD → PrngReg)

/-! ## The result arrays -/

/-- The specification's three arrays of core c's arguments, as contents of the three result buffers. -/
abbrev resH (c : Dev nD) : Buf (Elt Ideal) ((c : Thread nD τ).loc main_v5_0) :=
  hNextArr (aX m c) (aH m c) (aWi m c) (aWh m c) (aB m c) (aC m c)
abbrev resC (c : Dev nD) : Buf (Elt Ideal) ((c : Thread nD τ).loc main_v5_1) :=
  cNextArr (aX m c) (aH m c) (aWi m c) (aWh m c) (aB m c) (aC m c)
abbrev resO (c : Dev nD) : Buf (Elt Ideal) ((c : Thread nD τ).loc main_v5_2) :=
  gateOArr (aX m c) (aH m c) (aWi m c) (aWh m c) (aB m c)

/-! ## What a row tile's last point writes back -/

/-- The h' block. -/
theorem flushed_h (c : Dev nD) (t : Fin cfg0.N) (hf : (cfg0.win 6).flush t = true) :
    (dats m 0 c).flushed 6 t = ((cfg0.win 6).blk t).view.read (Elt Ideal) (resH m c) := by
  have hN : t.val < 256 := lt_of_lt_of_eq t.isLt (show cfg0.N = 256 from N_0)
  have h15 : t.val % 16 = 15 := (flush0_6 t).mp hf
  have h0 : ¬t.val % 16 = 0 := by omega
  obtain ⟨e60, e61, e70, e71, e80, e81⟩ := LstmBlocks.out_index_facts t
  rw [Value.flushed6_C m c t h0 h15,
    LstmPieces.h_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h15) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2,
    LstmAcc.scratch_eq_later m c t h0]
  funext y
  show _ = resH m c (((cfg0.win 6).blk t).view.emb y)
  have hrow : ((((cfg0.win 6).blk t).view.emb y) 0).val = 256 * (t.val / 16) + (y 0).val := by
    show win0_6.index t (0 : Fin 2) * 256 + 1 * (y 0).val = _; rw [e60]; omega
  have hcol : ((((cfg0.win 6).blk t).view.emb y) 1).val = (y 1).val := by
    show win0_6.index t (1 : Fin 2) * 2048 + 1 * (y 1).val = _; rw [e61]; omega
  refine Eq.trans ?_ (congrArg₂ (hNext (aX m c) (aH m c) (aWi m c) (aWh m c) (aB m c) (aC m c)) hrow hcol).symm
  have hy : y = ix2 (y 0) (y 1) := eq_ix2 y
  rw [hy]
  exact h_value (aX m c) (aH m c) (aWi m c) (aWh m c) (aB m c) (aC m c) (256 * (t.val / 16)) (outsAt0 m c t.val t.isLt).2.2.2 (iblk m c 5 t)
    (fun r g => LstmAcc.acc_last m c t h15 r g) (fun r q => LstmBlocks.c_block m c t r q) (y 0) (y 1)

/-- The c' block. -/
theorem flushed_c (c : Dev nD) (t : Fin cfg0.N) (hf : (cfg0.win 7).flush t = true) :
    (dats m 0 c).flushed 7 t = ((cfg0.win 7).blk t).view.read (Elt Ideal) (resC m c) := by
  have hN : t.val < 256 := lt_of_lt_of_eq t.isLt (show cfg0.N = 256 from N_0)
  have h15 : t.val % 16 = 15 := (flush0_7 t).mp hf
  have h0 : ¬t.val % 16 = 0 := by omega
  obtain ⟨e60, e61, e70, e71, e80, e81⟩ := LstmBlocks.out_index_facts t
  rw [Value.flushed7_C m c t h0 h15,
    LstmPieces.c_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h15) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2,
    LstmAcc.scratch_eq_later m c t h0]
  funext y
  show _ = resC m c (((cfg0.win 7).blk t).view.emb y)
  have hrow : ((((cfg0.win 7).blk t).view.emb y) 0).val = 256 * (t.val / 16) + (y 0).val := by
    show win0_7.index t (0 : Fin 2) * 256 + 1 * (y 0).val = _; rw [e70]; omega
  have hcol : ((((cfg0.win 7).blk t).view.emb y) 1).val = (y 1).val := by
    show win0_7.index t (1 : Fin 2) * 2048 + 1 * (y 1).val = _; rw [e71]; omega
  refine Eq.trans ?_ (congrArg₂ (cNext (aX m c) (aH m c) (aWi m c) (aWh m c) (aB m c) (aC m c)) hrow hcol).symm
  have hy : y = ix2 (y 0) (y 1) := eq_ix2 y
  rw [hy]
  exact c_value (aX m c) (aH m c) (aWi m c) (aWh m c) (aB m c) (aC m c) (256 * (t.val / 16)) (outsAt0 m c t.val t.isLt).2.2.2 (iblk m c 5 t)
    (fun r g => LstmAcc.acc_last m c t h15 r g) (fun r q => LstmBlocks.c_block m c t r q) (y 0) (y 1)

/-- The o block. -/
theorem flushed_o (c : Dev nD) (t : Fin cfg0.N) (hf : (cfg0.win 8).flush t = true) :
    (dats m 0 c).flushed 8 t = ((cfg0.win 8).blk t).view.read (Elt Ideal) (resO m c) := by
  have hN : t.val < 256 := lt_of_lt_of_eq t.isLt (show cfg0.N = 256 from N_0)
  have h15 : t.val % 16 = 15 := (flush0_8 t).mp hf
  have h0 : ¬t.val % 16 = 0 := by omega
  obtain ⟨e60, e61, e70, e71, e80, e81⟩ := LstmBlocks.out_index_facts t
  rw [Value.flushed8_C m c t h0 h15,
    LstmPieces.o_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h15) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2,
    LstmAcc.scratch_eq_later m c t h0]
  funext y
  show _ = resO m c (((cfg0.win 8).blk t).view.emb y)
  have hrow : ((((cfg0.win 8).blk t).view.emb y) 0).val = 256 * (t.val / 16) + (y 0).val := by
    show win0_8.index t (0 : Fin 2) * 256 + 1 * (y 0).val = _; rw [e80]; omega
  have hcol : ((((cfg0.win 8).blk t).view.emb y) 1).val = (y 1).val := by
    show win0_8.index t (1 : Fin 2) * 2048 + 1 * (y 1).val = _; rw [e81]; omega
  refine Eq.trans ?_ (congrArg₂ (gateO (aX m c) (aH m c) (aWi m c) (aWh m c) (aB m c)) hrow hcol).symm
  have hy : y = ix2 (y 0) (y 1) := eq_ix2 y
  rw [hy]
  exact o_value (aX m c) (aH m c) (aWi m c) (aWh m c) (aB m c)  (256 * (t.val / 16)) (outsAt0 m c t.val t.isLt).2.2.2
    (fun r g => LstmAcc.acc_last m c t h15 r g)  (y 0) (y 1)

/-! ## The sixteen row tiles cover each result array -/

/-- An index of result 0's array is in point t's block iff its row is one of the block's 256 rows. -/
theorem mem_blk6 (t : Fin cfg0.N) (i : S4096x2048.Idx) :
    i ∈ ((cfg0.win 6).blk t).view.set ↔ ∀ a : Fin 2, win0_6.index t a * S256x2048.size a ≤ (i a).val
      ∧ (i a).val < win0_6.index t a * S256x2048.size a + S256x2048.size a := by
  show i ∈ ((View.whole main_v5_0).slice (win0_6.rect t)).set ↔ _
  rw [View.set_slice_whole, Rect.mem_set_unit]
  exact Iff.rfl

/-- Row R of result 0's array lies in the block written back at the last point of row tile R / 256. -/
theorem cover6 (i : S4096x2048.Idx) :
    ∃ t : Fin cfg0.N, (cfg0.win 6).flush t = true ∧ i ∈ ((cfg0.win 6).blk t).view.set := by
  have hi0 : (i 0).val < 4096 := idx2_lt0 i
  have hi1 : (i 1).val < 2048 := idx2_lt1 i
  have hN : cfg0.N = 256 := N_0
  have hb : 16 * ((i 0).val / 256) + 15 < cfg0.N := by rw [hN]; omega
  obtain ⟨e60, e61, e70, e71, e80, e81⟩ := LstmBlocks.out_index_facts ⟨16 * ((i 0).val / 256) + 15, hb⟩
  refine ⟨⟨16 * ((i 0).val / 256) + 15, hb⟩, (flush0_6 _).mpr (by show (16 * ((i 0).val / 256) + 15) % 16 = 15; omega), ?_⟩
  rw [mem_blk6]
  intro a
  match a with
  | ⟨0, _⟩ =>
    show win0_6.index ⟨16 * ((i 0).val / 256) + 15, hb⟩ (0 : Fin 2) * 256 ≤ (i 0).val
      ∧ (i 0).val < win0_6.index ⟨16 * ((i 0).val / 256) + 15, hb⟩ (0 : Fin 2) * 256 + 256
    rw [e60]
    show (16 * ((i 0).val / 256) + 15) / 16 * 256 ≤ (i 0).val ∧ (i 0).val < (16 * ((i 0).val / 256) + 15) / 16 * 256 + 256
    omega
  | ⟨1, _⟩ =>
    show win0_6.index ⟨16 * ((i 0).val / 256) + 15, hb⟩ (1 : Fin 2) * 2048 ≤ (i 1).val
      ∧ (i 1).val < win0_6.index ⟨16 * ((i 0).val / 256) + 15, hb⟩ (1 : Fin 2) * 2048 + 2048
    rw [e61]
    omega

/-- An index of result 1's array is in point t's block iff its row is one of the block's 256 rows. -/
theorem mem_blk7 (t : Fin cfg0.N) (i : S4096x2048.Idx) :
    i ∈ ((cfg0.win 7).blk t).view.set ↔ ∀ a : Fin 2, win0_7.index t a * S256x2048.size a ≤ (i a).val
      ∧ (i a).val < win0_7.index t a * S256x2048.size a + S256x2048.size a := by
  show i ∈ ((View.whole main_v5_1).slice (win0_7.rect t)).set ↔ _
  rw [View.set_slice_whole, Rect.mem_set_unit]
  exact Iff.rfl

/-- Row R of result 1's array lies in the block written back at the last point of row tile R / 256. -/
theorem cover7 (i : S4096x2048.Idx) :
    ∃ t : Fin cfg0.N, (cfg0.win 7).flush t = true ∧ i ∈ ((cfg0.win 7).blk t).view.set := by
  have hi0 : (i 0).val < 4096 := idx2_lt0 i
  have hi1 : (i 1).val < 2048 := idx2_lt1 i
  have hN : cfg0.N = 256 := N_0
  have hb : 16 * ((i 0).val / 256) + 15 < cfg0.N := by rw [hN]; omega
  obtain ⟨e60, e61, e70, e71, e80, e81⟩ := LstmBlocks.out_index_facts ⟨16 * ((i 0).val / 256) + 15, hb⟩
  refine ⟨⟨16 * ((i 0).val / 256) + 15, hb⟩, (flush0_7 _).mpr (by show (16 * ((i 0).val / 256) + 15) % 16 = 15; omega), ?_⟩
  rw [mem_blk7]
  intro a
  match a with
  | ⟨0, _⟩ =>
    show win0_7.index ⟨16 * ((i 0).val / 256) + 15, hb⟩ (0 : Fin 2) * 256 ≤ (i 0).val
      ∧ (i 0).val < win0_7.index ⟨16 * ((i 0).val / 256) + 15, hb⟩ (0 : Fin 2) * 256 + 256
    rw [e70]
    show (16 * ((i 0).val / 256) + 15) / 16 * 256 ≤ (i 0).val ∧ (i 0).val < (16 * ((i 0).val / 256) + 15) / 16 * 256 + 256
    omega
  | ⟨1, _⟩ =>
    show win0_7.index ⟨16 * ((i 0).val / 256) + 15, hb⟩ (1 : Fin 2) * 2048 ≤ (i 1).val
      ∧ (i 1).val < win0_7.index ⟨16 * ((i 0).val / 256) + 15, hb⟩ (1 : Fin 2) * 2048 + 2048
    rw [e71]
    omega

/-- An index of result 2's array is in point t's block iff its row is one of the block's 256 rows. -/
theorem mem_blk8 (t : Fin cfg0.N) (i : S4096x2048.Idx) :
    i ∈ ((cfg0.win 8).blk t).view.set ↔ ∀ a : Fin 2, win0_8.index t a * S256x2048.size a ≤ (i a).val
      ∧ (i a).val < win0_8.index t a * S256x2048.size a + S256x2048.size a := by
  show i ∈ ((View.whole main_v5_2).slice (win0_8.rect t)).set ↔ _
  rw [View.set_slice_whole, Rect.mem_set_unit]
  exact Iff.rfl

/-- Row R of result 2's array lies in the block written back at the last point of row tile R / 256. -/
theorem cover8 (i : S4096x2048.Idx) :
    ∃ t : Fin cfg0.N, (cfg0.win 8).flush t = true ∧ i ∈ ((cfg0.win 8).blk t).view.set := by
  have hi0 : (i 0).val < 4096 := idx2_lt0 i
  have hi1 : (i 1).val < 2048 := idx2_lt1 i
  have hN : cfg0.N = 256 := N_0
  have hb : 16 * ((i 0).val / 256) + 15 < cfg0.N := by rw [hN]; omega
  obtain ⟨e60, e61, e70, e71, e80, e81⟩ := LstmBlocks.out_index_facts ⟨16 * ((i 0).val / 256) + 15, hb⟩
  refine ⟨⟨16 * ((i 0).val / 256) + 15, hb⟩, (flush0_8 _).mpr (by show (16 * ((i 0).val / 256) + 15) % 16 = 15; omega), ?_⟩
  rw [mem_blk8]
  intro a
  match a with
  | ⟨0, _⟩ =>
    show win0_8.index ⟨16 * ((i 0).val / 256) + 15, hb⟩ (0 : Fin 2) * 256 ≤ (i 0).val
      ∧ (i 0).val < win0_8.index ⟨16 * ((i 0).val / 256) + 15, hb⟩ (0 : Fin 2) * 256 + 256
    rw [e80]
    show (16 * ((i 0).val / 256) + 15) / 16 * 256 ≤ (i 0).val ∧ (i 0).val < (16 * ((i 0).val / 256) + 15) / 16 * 256 + 256
    omega
  | ⟨1, _⟩ =>
    show win0_8.index ⟨16 * ((i 0).val / 256) + 15, hb⟩ (1 : Fin 2) * 2048 ≤ (i 1).val
      ∧ (i 1).val < win0_8.index ⟨16 * ((i 0).val / 256) + 15, hb⟩ (1 : Fin 2) * 2048 + 2048
    rw [e81]
    omega

/-! ## The arrays after the run, and the run -/

/-- The first result array ends holding h'. -/
theorem final_h (c : Dev nD) : (dats m 0 c).arrAt 6 cfg0.N = resH m c :=
  (dats m 0 c).arrAt_eq_of_cover 6 (resH m c) (fun t hf => flushed_h m c t hf) cover6
/-- The second result array ends holding c'. -/
theorem final_c (c : Dev nD) : (dats m 0 c).arrAt 7 cfg0.N = resC m c :=
  (dats m 0 c).arrAt_eq_of_cover 7 (resC m c) (fun t hf => flushed_c m c t hf) cover7
/-- The third result array ends holding o. -/
theorem final_o (c : Dev nD) : (dats m 0 c).arrAt 8 cfg0.N = resO m c :=
  (dats m 0 c).arrAt_eq_of_cover 8 (resO m c) (fun t hf => flushed_o m c t hf) cover8

/-- Every weakly fair execution of the idealized kernel ends with the three result arrays at the specification's
    h', c' and o of the arguments, and the arguments unchanged. -/
theorem run : θ_run defs (onTc (τ := τ) (main (F := Ideal))) ⟨m, fun _ => 0, ρ⟩ fun r => ∀ c : Dev nD,
      r.2.mem ((c : Thread nD τ).loc main_v5_0) = resH m c
      ∧ r.2.mem ((c : Thread nD τ).loc main_v5_1) = resC m c
      ∧ r.2.mem ((c : Thread nD τ).loc main_v5_2) = resO m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_h m c), (h c).2.1.trans (final_c m c),
      (h c).2.2.1.trans (final_o m c), (h c).2.2.2⟩)
    (Value.run_blocks m ρ)

end Cert.KernelIdeal.LstmFinal

end
-- ==== Proof.lean ====
/-
  An LSTM cell computed by a tiled kernel equals its plain reference, over the extended reals.

  Inputs: x, h, c of 4096 rows by 2048 columns, the weights w_ih, w_hh of 8192 rows by 2048 columns, and the bias b of
  length 8192 (a further input o is read by neither program). With the pre-activation
      z(r, g) = Σ_j x(r, j) · w_ih(g, j) + Σ_j h(r, j) · w_hh(g, j) + b(g),
  the results at row r and hidden unit q are
      o = σ(z(r, 6144 + q)),   c' = σ(z(r, q)) · c(r, q) + σ(z(r, 2048 + q)) · tanh(z(r, 4096 + q)),   h' = o · tanh c'.

  The reference computes z with two full contractions and adds the bias last. The kernel walks a grid of 16 row tiles
  by 16 contraction steps: at the first step of a row tile it seeds a [256, 8192] accumulator with the bias, at every
  step it adds the products of the step's 128-column blocks, and at the last step it applies the gates to the four
  column ranges of the accumulator and writes the three result blocks back. Both reach the same z because a finite sum
  may be cut into consecutive blocks, a sum of sums is the sum of the two sums, and addition is commutative — laws
  that hold for all extended reals, so the finiteness of the inputs is never used. The kernel's one-operation sigmoid
  and the reference's 1 / (1 + exp(−z)) are the same function by definition, and the narrower float format in which
  the kernel stages x, h and the weights is the identity on the extended reals.

  The modules: the specification and the law above (LstmSpec), the reference read one operation at a time (LstmRef),
  what the kernel body leaves at a grid point in each of its three cases (LstmPieces), its arithmetic at an index
  (LstmPayload), the input blocks as entries of the arguments (LstmBlocks), the accumulator by induction over the
  points (LstmAcc), and the result arrays after the run (LstmFinal).
-/
import proofs.«175771_j89867895701841_2_alg».proof.Defs
import proofs.«175771_j89867895701841_2_alg».proof.Proof.Gen.Kernel
import proofs.«175771_j89867895701841_2_alg».proof.Proof.Gen.Kernel.Skeleton
import proofs.«175771_j89867895701841_2_alg».proof.Proof.Gen.Kernel.Launch
import proofs.«175771_j89867895701841_2_alg».proof.Proof.Gen.Kernel.Points
import proofs.«175771_j89867895701841_2_alg».proof.Proof.Gen.Kernel.Frame
import proofs.«175771_j89867895701841_2_alg».proof.Proof.Gen.KernelIdeal
import proofs.«175771_j89867895701841_2_alg».proof.Proof.Gen.KernelIdeal.Skeleton
import proofs.«175771_j89867895701841_2_alg».proof.Proof.Gen.KernelIdeal.Launch
import proofs.«175771_j89867895701841_2_alg».proof.Proof.Gen.KernelIdeal.Points
import proofs.«175771_j89867895701841_2_alg».proof.Proof.Gen.KernelIdeal.Frame
import proofs.«175771_j89867895701841_2_alg».proof.Proof.Gen.KernelIdeal.Value
import proofs.«175771_j89867895701841_2_alg».proof.Proof.Gen.ReferenceIdeal
import proofs.«175771_j89867895701841_2_alg».proof.Proof.Gen.ReferenceIdeal.Run
import proofs.«175771_j89867895701841_2_alg».proof.Proof.Gen.ReferenceIdeal.Read
import proofs.«175771_j89867895701841_2_alg».proof.Proof.Gen.Pre_finite_inputs
import proofs.«175771_j89867895701841_2_alg».proof.Proof.LstmRef
import proofs.«175771_j89867895701841_2_alg».proof.Proof.LstmFinal
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the results dropped. -/
theorem frame_referenceIdeal : Cert.frame_ReferenceIdeal := fun m ρ _ =>
  (θ_run Cert.ReferenceIdeal.defs _ _).mono (fun _ h c => (h c).2.2.2)
    (Cert.ReferenceIdeal.Value.run (F := Ideal) m ρ)

/-- Reading the kernel over the extended reals rewrote none of its operations. -/
theorem preserves : Cert.preserves_Kernel_KernelIdeal := trivial

/-- From arguments that agree, both programs end with h', c' and o of the specification in their result arrays. -/
theorem algebraic : Cert.algebraic_KernelIdeal_ReferenceIdeal := by
  intro m ρ m' ρ' _ hagree
  refine ⟨fun c => Cert.KernelIdeal.LstmFinal.resH m c, fun c => Cert.KernelIdeal.LstmFinal.resC m c,
    fun c => Cert.KernelIdeal.LstmFinal.resO m c, Cert.KernelIdeal.LstmFinal.run m ρ, ?_⟩
  refine (θ_run Cert.ReferenceIdeal.defs _ _).mono (fun _ h c => ?_)
    (Cert.ReferenceIdeal.Value.run (F := Ideal) m' ρ')
  obtain ⟨a0, a1, a2, -, a4, a5, a6⟩ := hagree c
  refine ⟨(h c).1.trans ?_, (h c).2.1.trans ?_, (h c).2.2.1.trans ?_, (h c).2.2.2⟩
  · rw [Cert.ReferenceIdeal.Read.val_main_v35_eq, Cert.LstmRef.ref_h, a0, a1, a2, a4, a5, a6]
  · rw [Cert.ReferenceIdeal.Read.val_main_v33_eq, Cert.LstmRef.ref_c, a0, a1, a2, a4, a5, a6]
  · rw [Cert.ReferenceIdeal.Read.val_main_v30_eq, Cert.LstmRef.ref_o, a0, a1, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
